-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x1 : Shape := ⟨2, ![100000, 1]⟩
abbrev S128x128 : Shape := ⟨2, ![128, 128]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S1x128 .f32) (main_arg10 : FVec F S128x128 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128x128 .f32) (main_arg9 : FVec F S1x128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S1600000 .f32) (main_arg4 : FVec F S100000x1 .f32) (main_arg5 : FVec F S128x128 .f32) (main_arg6 : FVec F S128x128 .f32) (main_arg7 : FVec F S128x128 .f32) (main_arg8 : FVec F S128x128 .f32) (main_arg9 : FVec F S1x128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S100000x1 : Shape := ⟨2, ![100000, 1]⟩
abbrev S128x128 : Shape := ⟨2, ![128, 128]⟩
abbrev S1x128 : Shape := ⟨2, ![1, 128]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S2000x1 : Shape := ⟨2, ![2000, 1]⟩

abbrev nBuf : Space → Nat
  | .hbm => 50
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x1, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S128x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S100000x128, .f32⟩
  | .hbm, ⟨49, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22
abbrev cc1_sem12_0 : DmaSem sig := 23
abbrev cc1_sem12_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S2000x128 : S1x128.Broadcasts S2000x128
  broadcasts_S2000x1_S2000x128 : S2000x1.Broadcasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S100000x128.size a
  hwx1_11 : ∀ i : grid1.Coords, EltTy.bits .f32 = 32 ∨ (Rect.block (s := S100000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S100000x128.size a
  hwx1_12 : ∀ i : grid1.Coords, EltTy.bits .f32 = 32 ∨ (Rect.block (s := S100000x128) S2000x128.size (cc1_transform_12 i) (hinb1_12 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v31_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x1 : Shape := ⟨2, ![100000, 1]⟩
abbrev S128x128 : Shape := ⟨2, ![128, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x1, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S128x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S100000x128, .f32⟩
  | .hbm, ⟨35, _⟩ => ⟨S100000x128, .i1⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S_, .f32⟩
  | .hbm, ⟨50, _⟩ => ⟨S100000x128, .f32⟩
  | .hbm, ⟨51, _⟩ => ⟨S100000x128, .i1⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_4 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its two result arrays NAMED.

  The program is two gridded regions with a stretch of host operations between them. Its run is the chain of
  segments: region 0, the host stretch, region 1; the buffer contents at the segment boundaries are a fold from the
  launch memory (`W0` … `W3` of the frame module). Every weakly fair execution terminates, faults nowhere, and ends
  with EVERY unscoped buffer at the last boundary's contents `W3`: in particular the two results, and the eleven
  arguments (which `W3` reads back to the launch memory). The frame module keeps only the arguments from that
  final state; here the two results are kept as well, at `W3`'s contents, which the value modules then read.
-/
import proofs.«134339_j10866267259410_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end each result array holds the
    last boundary's contents of its buffer, and each argument array is as launched. -/
theorem run : θ_run defs (onTc (τ := τ) (main (F := F))) ⟨m, fun _ => 0, ρ⟩ (fun r => ∀ c : Dev nD,
      r.2.mem ((c.tc : Thread nD τ).loc main_v31_0) = W3 m ρ c (Proc.devRef .tc main_v31_0)
      ∧ r.2.mem ((c.tc : Thread nD τ).loc main_v31_1) = W3 m ρ c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v31_0 (by decide)),
       h c _ (mem_uc main_v31_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.Named

end
-- ==== Proof.Spec.lean ====
/-
  The mathematics both programs compute, stated once over abstract arrays of extended reals.

  For a feature matrix `X` (rows = nodes), its neighbourhood aggregate `N`, the projected features `XW`, their
  aggregate `NXW`, the per-node normaliser `NORM`, four transposed relation weights, a relation row `R` and the
  graph-convolution weight `GCW`:

    γ(p,q) = lrelu(Σ_k X[p,k]·WG1[k,q] + Σ_k N[p,k]·WG2[k,q]) + 1
    β(p,q) = lrelu(Σ_k X[p,k]·WB1[k,q] + Σ_k N[p,k]·WB2[k,q])
    m(p,q) = X[p,q] + (γ(p,q)·R[0,q] + β(p,q)) − N[p,q]
    h(p,q) = ((NXW[p,q] + XW[p,q]) + Σ_k m(p,k)·GCW[k,q]) / (NORM[p,0] + 1)

  with lrelu(z) = z if z ≥ 0 else 0.2·z (the three literals kept as their binary words). Row `p` of each result
  depends only on row `p` of the row-indexed operands: that is what lets a block of rows be computed from the
  corresponding blocks of rows (the congruence lemmas), whatever the number of rows.

  The sparse aggregate is a fixed chain of host operations (index wrap-around, gather of rows, scaling by the edge
  value, accumulating scatter into the zero array); it is carried as ONE function `spmm` of the gathered-from array and
  never opened.
-/
import Idealize.ShloMosaic.Lib.ValueIdx
import Idealize.ShloMosaic.PureOps.Ideal
import Idealize.ShloMosaic.PureOps

noncomputable section

namespace Cert.Spec

open Idealize.ShloMosaic Idealize.ShloMosaic.ValueIdx
open scoped BigOperators

/-- A two-axis array of extended reals. -/
abbrev Mat (r c : ℕ) : Type := (⟨2, ![r, c]⟩ : Shape).Idx → EReal

/-- The words 0.0, 0.2 (rounded to f32) and 1.0 at their exact values. -/
abbrev zeroW : EReal := Ideal.ofBits .f32 0x00000000#32
abbrev slopeW : EReal := Ideal.ofBits .f32 0x3E4CCCCD#32
abbrev oneW : EReal := Ideal.ofBits .f32 0x3F800000#32

/-- Leaky rectifier: the argument where it is at least zero, the slope times the argument elsewhere. -/
def lrelu (z : EReal) : EReal := Scalar.select (Ideal.cmp .oge z zeroW) z (slopeW * z)

variable {a b : ℕ}

/-- Entry `(p, q)` of a product with a 128 × 128 matrix. -/
def dotAt (L : Mat a 128) (W : Mat 128 128) (p : Fin a) (q : Fin 128) : EReal :=
  ∑ k : Fin 128, L (ix2 p k) * W (ix2 k q)

/-- The message `m` at `(p, q)`. -/
def mAt (X N : Mat a 128) (WG1 WG2 WB1 WB2 : Mat 128 128) (R : Mat 1 128) (p : Fin a) (q : Fin 128) : EReal :=
  X (ix2 p q) + ((lrelu (dotAt X WG1 p q + dotAt N WG2 p q) + oneW) * R (ix2 (0 : Fin 1) q)
    + lrelu (dotAt X WB1 p q + dotAt N WB2 p q)) - N (ix2 p q)

/-- The normalised combination `h` at `(p, q)`. -/
def hkAt (X N XW NXW : Mat a 128) (NORM : Mat a 1) (WG1 WG2 WB1 WB2 : Mat 128 128) (R : Mat 1 128) (GCW : Mat 128 128)
    (p : Fin a) (q : Fin 128) : EReal :=
  Ideal.div ((NXW (ix2 p q) + XW (ix2 p q)) + ∑ k : Fin 128, mAt X N WG1 WG2 WB1 WB2 R p k * GCW (ix2 k q))
    (NORM (ix2 p (0 : Fin 1)) + oneW)

/-- The three as whole arrays. -/
def dotArr (L : Mat a 128) (W : Mat 128 128) : Mat a 128 := fun j => dotAt L W (j 0) (j 1)
def mArr (X N : Mat a 128) (WG1 WG2 WB1 WB2 : Mat 128 128) (R : Mat 1 128) : Mat a 128 :=
  fun j => mAt X N WG1 WG2 WB1 WB2 R (j 0) (j 1)
def hkArr (X N XW NXW : Mat a 128) (NORM : Mat a 1) (WG1 WG2 WB1 WB2 : Mat 128 128) (R : Mat 1 128) (GCW : Mat 128 128) :
    Mat a 128 :=
  fun j => hkAt X N XW NXW NORM WG1 WG2 WB1 WB2 R GCW (j 0) (j 1)

theorem dotArr_ix2 (L : Mat a 128) (W : Mat 128 128) (p : Fin a) (q : Fin 128) : dotArr L W (ix2 p q) = dotAt L W p q := rfl
theorem mArr_ix2 (X N : Mat a 128) (WG1 WG2 WB1 WB2 : Mat 128 128) (R : Mat 1 128) (p : Fin a) (q : Fin 128) :
    mArr X N WG1 WG2 WB1 WB2 R (ix2 p q) = mAt X N WG1 WG2 WB1 WB2 R p q := rfl
theorem hkArr_ix2 (X N XW NXW : Mat a 128) (NORM : Mat a 1) (WG1 WG2 WB1 WB2 : Mat 128 128) (R : Mat 1 128) (GCW : Mat 128 128)
    (p : Fin a) (q : Fin 128) :
    hkArr X N XW NXW NORM WG1 WG2 WB1 WB2 R GCW (ix2 p q) = hkAt X N XW NXW NORM WG1 WG2 WB1 WB2 R GCW p q := rfl

/-! ## Rows: a result's row depends only on the same row of the row-indexed operands -/

theorem dotAt_congr (L : Mat a 128) (L' : Mat b 128) (W : Mat 128 128) (p : Fin a) (p' : Fin b) (q : Fin 128)
    (h : ∀ k : Fin 128, L' (ix2 p' k) = L (ix2 p k)) : dotAt L' W p' q = dotAt L W p q := by
  unfold dotAt; exact Finset.sum_congr rfl fun k _ => by rw [h k]

theorem mAt_congr (X N : Mat a 128) (X' N' : Mat b 128) (WG1 WG2 WB1 WB2 : Mat 128 128) (R : Mat 1 128)
    (p : Fin a) (p' : Fin b) (q : Fin 128)
    (hX : ∀ k : Fin 128, X' (ix2 p' k) = X (ix2 p k)) (hN : ∀ k : Fin 128, N' (ix2 p' k) = N (ix2 p k)) :
    mAt X' N' WG1 WG2 WB1 WB2 R p' q = mAt X N WG1 WG2 WB1 WB2 R p q := by
  unfold mAt
  rw [dotAt_congr X X' WG1 p p' q hX, dotAt_congr N N' WG2 p p' q hN, dotAt_congr X X' WB1 p p' q hX,
    dotAt_congr N N' WB2 p p' q hN, hX q, hN q]

theorem hkAt_congr (X N XW NXW : Mat a 128) (NORM : Mat a 1) (X' N' XW' NXW' : Mat b 128) (NORM' : Mat b 1)
    (WG1 WG2 WB1 WB2 : Mat 128 128) (R : Mat 1 128) (GCW : Mat 128 128) (p : Fin a) (p' : Fin b) (q : Fin 128)
    (hX : ∀ k : Fin 128, X' (ix2 p' k) = X (ix2 p k)) (hN : ∀ k : Fin 128, N' (ix2 p' k) = N (ix2 p k))
    (hXW : ∀ k : Fin 128, XW' (ix2 p' k) = XW (ix2 p k)) (hNXW : ∀ k : Fin 128, NXW' (ix2 p' k) = NXW (ix2 p k))
    (hNORM : NORM' (ix2 p' (0 : Fin 1)) = NORM (ix2 p (0 : Fin 1))) :
    hkAt X' N' XW' NXW' NORM' WG1 WG2 WB1 WB2 R GCW p' q = hkAt X N XW NXW NORM WG1 WG2 WB1 WB2 R GCW p q := by
  unfold hkAt
  rw [hXW q, hNXW q, hNORM]
  refine congrArg (fun s => Ideal.div ((NXW (ix2 p q) + XW (ix2 p q)) + s) (NORM (ix2 p (0 : Fin 1)) + oneW)) ?_
  exact Finset.sum_congr rfl fun k _ => by rw [mAt_congr X N X' N' WG1 WG2 WB1 WB2 R p p' k hX hN]

end Cert.Spec

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KernelXw.lean ====
/-
  Region 0 (the projection `xw = x · gc_w`, fifty blocks of 2000 rows), read as one whole-array function.

  At grid point `t` the body multiplies rows `2000 t … 2000 t + 1999` of the features (window 0's block) by the whole
  weight (window 1's block is the whole 128 × 128 array at every point) into a zero accumulator, and the result is
  written back as block `t` of the output. At the exact values the rounding to the narrower format on the way into
  the product is the identity and the product into a zero accumulator is the plain sum over the contracted index, so
  entry `(y, q)` of the block is `Σ_k x[2000 t + y, k] · w[k, q]`: block `t` of the whole-array product. The fifty
  blocks tile the output, so the output array ends as the whole product. All of it holds for whatever contents the
  region finds in its buffers (the parameter `V`).
-/
import proofs.«134339_j10866267259410_1_alg».proof.Proof.Gen.KernelIdeal.Frame
import proofs.«134339_j10866267259410_1_alg».proof.Proof.Spec
import proofs.«134339_j10866267259410_1_alg».proof.Proof.LibMatmulRead
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Xw

open Cert.KernelIdeal Cert.KernelIdeal.Gen Idealize.ShloMosaic.ValueIdx Idealize.ShloMosaic.MatmulRead

theorem hz : (![0, 0] : Fin 2 → Nat) = fun _ => 0 := funext fun a => by fin_cases a <;> rfl

/-- The block product's record is of the rows-by-columns form. -/
theorem rbc : RowsByCols dot_S2000x128_S128x128_S2000x128_1_0_0_1_n_n := ⟨rfl, rfl, rfl, rfl, rfl, rfl⟩

/-- A block product into the zero accumulator, at an entry: the sum over the contracted index. -/
theorem blockdot_apply {φ₁ φ₂ : FTy} (x : FVec Ideal S2000x128 φ₁) (w : FVec Ideal S128x128 φ₂) (y : Fin 2000) (q : Fin 128) :
    matmul dot_S2000x128_S128x128_S2000x128_1_0_0_1_n_n none x w (constant (F := Ideal) S2000x128 .f32 0x00000000#32) (ix2 y q)
      = ∑ k : Fin 128, x (ix2 y k) * w (ix2 k q) :=
  matmul_zero_ix2 rbc rfl rfl none x w y q

/-- The body's stored value at an entry of the block, from blocks that hold rows of `X` and the whole of `W`. -/
theorem pay_xw (x0 : Vec Ideal S2000x128 .f32) (x1 : Vec Ideal S128x128 .f32) (X : Spec.Mat 100000 128) (W : Spec.Mat 128 128)
    (y : Fin 2000) (q : Fin 128) (p : Fin 100000)
    (hx : ∀ k : Fin 128, x0 (ix2 y k) = X (ix2 p k)) (hw : ∀ k : Fin 128, x1 (ix2 k q) = W (ix2 k q)) :
    k0_pay1 (F := Ideal) x0 x1 (ix2 y q) = Spec.dotAt X W p q := by
  unfold k0_pay1
  refine (blockdot_apply _ _ y q).trans ?_
  unfold Spec.dotAt
  refine Finset.sum_congr rfl fun k _ => ?_
  rw [truncf_apply, truncf_apply, hx k, hw k]

variable (V : (c : Dev nD) → (b : Ref sig .tc) → Buf (Elt Ideal) ((c : Thread nD τ).loc b))

/-- Where the three windows' blocks sit, decided over the grid: the row windows at block `t`, the weight at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` holds rows `2000 t …` of the features. -/
theorem xblk_apply (c : Dev nD) (t : Fin cfg0.N) (x : S2000x128.Idx) (k : S100000x128.Idx)
    (hk0 : (k 0).val = t.val * 2000 + (x 0).val) (hk1 : (k 1).val = (x 1).val) :
    (iblk0 V c 0 t : Vec Ideal S2000x128 .f32) x = (V c main_arg0 : S100000x128.Idx → EReal) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- Window 1's block at every point is the whole weight. -/
theorem wblk_apply (c : Dev nD) (t : Fin cfg0.N) (x : S128x128.Idx) :
    (iblk0 V c 1 t : Vec Ideal S128x128 .f32) x = (V c main_arg10 : S128x128.Idx → EReal) x := by
  obtain ⟨-, -, e2, e3, -⟩ := idx_facts t
  unfold iblk0
  rw [View.read_apply]
  show V c main_arg10 _ = V c main_arg10 _
  refine congrArg (V c main_arg10) ?_
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point `t` writes back is block `t` of the whole product. -/
theorem flushed_xw (c : Dev nD) (t : Fin cfg0.N) :
    (dat0 V c).flushed 2 t = ((cfg0.win 2).blk t).view.read (Elt Ideal)
      (Spec.dotArr (V c main_arg0 : S100000x128.Idx → EReal) (V c main_arg10 : S128x128.Idx → EReal)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e4, e5⟩ := idx_facts t
  funext j
  rw [View.read_apply]
  have hj0 : (j 0).val < 2000 := (j 0).isLt
  have hrow : ((((cfg0.win 2).blk t).view.emb j) 0).val = t.val * 2000 + (j 0).val := by
    show win0_2.index t 0 * 2000 + 1 * (j 0).val = _; rw [e4]; omega
  have hcol : ((((cfg0.win 2).blk t).view.emb j) 1).val = (j 1).val := by
    show win0_2.index t 1 * 128 + 1 * (j 1).val = _; rw [e5]; omega
  rw [eq_ix2 j]
  refine (pay_xw _ _ (V c main_arg0 : S100000x128.Idx → EReal) (V c main_arg10 : S128x128.Idx → EReal) (j 0) (j 1)
    ((((cfg0.win 2).blk t).view.emb j) 0) (fun k => xblk_apply V c t _ _ hrow rfl) (fun k => wblk_apply V c t _)).trans ?_
  unfold Spec.dotArr
  exact congrArg (Spec.dotAt _ _ _) (Fin.ext hcol.symm)

/-- An index of the output is in point `t`'s block iff each coordinate is in the block's range. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The fifty blocks tile the output: row `r` is in block `r / 2000`. -/
theorem cover_xw (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  obtain ⟨-, -, -, -, e4, e5⟩ := idx_facts ⟨(i 0).val / 2000, by rw [hN]; omega⟩
  rw [mem_blk]
  intro a
  match a with
  | ⟨0, _⟩ =>
    show win0_2.index _ 0 * 2000 ≤ (i 0).val ∧ (i 0).val < win0_2.index _ 0 * 2000 + 2000
    rw [e4]; show (i 0).val / 2000 * 2000 ≤ (i 0).val ∧ (i 0).val < (i 0).val / 2000 * 2000 + 2000; omega
  | ⟨1, _⟩ =>
    show win0_2.index _ 1 * 128 ≤ (i 1).val ∧ (i 1).val < win0_2.index _ 1 * 128 + 128
    rw [e5]; omega

/-- The output array after region 0: the whole product of the features by the weight. -/
theorem final_xw (c : Dev nD) : (dat0 V c).arrAt 2 cfg0.N
    = Spec.dotArr (V c main_arg0 : S100000x128.Idx → EReal) (V c main_arg10 : S128x128.Idx → EReal) :=
  (dat0 V c).arrAt_eq_of_cover 2 _ (fun t _ => flushed_xw V c t) cover_xw

end Cert.KernelIdeal.Xw

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.KernelCombinePay.lean ====
/-
  Region 1 (the fused combine, fifty blocks of 2000 rows), read as two whole-array functions.

  At grid point `t` the body reads rows `2000 t … 2000 t + 1999` of the features `X`, of their aggregate `N`, of the
  projected features `XW`, of their aggregate `NXW` and of the normaliser, and the whole of the four relation
  weights, the relation row and the graph-convolution weight (those windows' block is the whole array at every
  point). At the exact values the roundings on the way into the products are the identity, a same-shape cast is the
  identity, each product into a zero accumulator is the plain sum over the contracted index, and every other
  operation acts entry by entry. So entry `(y, q)` of the block stored to the second output is the message
  `m(2000 t + y, q)` of the specification and that of the first output the normalised combination
  `h(2000 t + y, q)`: each a function of row `2000 t + y` of the row-indexed operands only. The fifty blocks tile
  each output, so the two output arrays end as the specification's whole arrays. All of it holds for whatever
  contents the region finds in its buffers (the parameter `V`).
-/
import proofs.«134339_j10866267259410_1_alg».proof.Proof.KernelXw
import proofs.«134339_j10866267259410_1_alg».proof.Proof.LibKeepdims
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Combine

open Cert.KernelIdeal Cert.KernelIdeal.Gen Idealize.ShloMosaic.ValueIdx Idealize.ShloMosaic.MatmulRead
open Cert.KernelIdeal.Xw (hz blockdot_apply)

/-! ## The body's values at an entry -/

/-- The rectifier as the body spells it on a block, at an entry. -/
theorem lrelu_apply (z : FVec Ideal S2000x128 .f32) (i : S2000x128.Idx) :
    select (cmpf .oge z (broadcast S2000x128 (Scalar.ofBits (F := Ideal) .f32 0x00000000#32))) z
      (mulf (broadcast S2000x128 (Scalar.ofBits (F := Ideal) .f32 0x3E4CCCCD#32)) z) i = Spec.lrelu (z i) := rfl

/-- A product of a block of rows (rounded, possibly through a same-shape cast) with a weight (cast, rounded). -/
theorem dotx_apply (x : Vec Ideal S2000x128 .f32) (w : Vec Ideal S128x128 .f32) (y : Fin 2000) (q : Fin 128) :
    matmul dot_S2000x128_S128x128_S2000x128_1_0_0_1_n_n none (truncf .bf16 x bitsLt_bf16_f32)
      (truncf .bf16 (shapeCast S128x128 w shapeCasts_S128x128_S128x128) bitsLt_bf16_f32)
      (constant (F := Ideal) S2000x128 .f32 0x00000000#32) (ix2 y q) = Spec.dotAt x w y q := by
  refine (blockdot_apply _ _ y q).trans ?_
  unfold Spec.dotAt
  refine Finset.sum_congr rfl fun k _ => ?_
  rw [truncf_apply, truncf_apply, shapeCast_self]

theorem dotn_apply (x : Vec Ideal S2000x128 .f32) (w : Vec Ideal S128x128 .f32) (y : Fin 2000) (q : Fin 128) :
    matmul dot_S2000x128_S128x128_S2000x128_1_0_0_1_n_n none
      (truncf .bf16 (shapeCast S2000x128 x shapeCasts_S2000x128_S2000x128) bitsLt_bf16_f32)
      (truncf .bf16 (shapeCast S128x128 w shapeCasts_S128x128_S128x128) bitsLt_bf16_f32)
      (constant (F := Ideal) S2000x128 .f32 0x00000000#32) (ix2 y q) = Spec.dotAt x w y q := by
  refine (blockdot_apply _ _ y q).trans ?_
  unfold Spec.dotAt
  refine Finset.sum_congr rfl fun k _ => ?_
  rw [truncf_apply, truncf_apply, shapeCast_self, shapeCast_self]

theorem pay8_apply (x0 : Vec Ideal S2000x128 .f32) (x7 : Vec Ideal S128x128 .f32) (y : Fin 2000) (q : Fin 128) :
    k1_pay8 (F := Ideal) x0 x7 (ix2 y q) = Spec.dotAt x0 x7 y q := by
  unfold k1_pay8 k1_pay6
  exact dotx_apply x0 x7 y q

theorem pay9_apply (x1 : Vec Ideal S2000x128 .f32) (x8 : Vec Ideal S128x128 .f32) (y : Fin 2000) (q : Fin 128) :
    k1_pay9 (F := Ideal) x1 x8 (ix2 y q) = Spec.dotAt x1 x8 y q := by
  unfold k1_pay9 k1_pay7 k1_pay3
  exact dotn_apply x1 x8 y q

theorem pay10_apply (x0 x1 : Vec Ideal S2000x128 .f32) (x5 x6 : Vec Ideal S128x128 .f32) (y : Fin 2000) (q : Fin 128) :
    k1_pay10 (F := Ideal) x0 x1 x5 x6 (ix2 y q)
      = Spec.lrelu (Spec.dotAt x0 x5 y q + Spec.dotAt x1 x6 y q) + Spec.oneW := by
  unfold k1_pay10 k1_pay6 k1_pay7 k1_pay3
  rw [addf_apply, lrelu_apply, addf_apply, dotx_apply, dotn_apply]
  rfl

/-- The message block at an entry. -/
theorem pay_m (x0 x1 : Vec Ideal S2000x128 .f32) (x5 x6 x7 x8 : Vec Ideal S128x128 .f32) (x9 : Vec Ideal S1x128 .f32)
    (y : Fin 2000) (q : Fin 128) :
    k1_pay1 (F := Ideal) x0 (k1_pay3 x1) (k1_pay8 x0 x7) (k1_pay9 x1 x8) (k1_pay10 x0 x1 x5 x6) x9 (ix2 y q)
      = Spec.mAt (a := 2000) x0 x1 x5 x6 x7 x8 x9 y q := by
  unfold k1_pay1
  rw [subf_apply, addf_apply, addf_apply, mulf_apply, lrelu_apply, addf_apply, pay10_apply, pay8_apply, pay9_apply,
    broadcastTo_1b_ab_apply]
  unfold k1_pay3
  rw [shapeCast_self]
  rfl

/-- The combination block at an entry. -/
theorem pay_hk (x0 x1 x2 x3 : Vec Ideal S2000x128 .f32) (x4 : Vec Ideal S2000x1 .f32) (x5 x6 x7 x8 : Vec Ideal S128x128 .f32)
    (x9 : Vec Ideal S1x128 .f32) (x10 : Vec Ideal S128x128 .f32) (y : Fin 2000) (q : Fin 128) :
    k1_pay2 (F := Ideal) x0 (k1_pay3 x1) (k1_pay4 x2) (k1_pay5 x3) x4 (k1_pay8 x0 x7) (k1_pay9 x1 x8) (k1_pay10 x0 x1 x5 x6) x9 x10 (ix2 y q)
      = Spec.hkAt (a := 2000) x0 x1 x2 x3 x4 x5 x6 x7 x8 x9 x10 y q := by
  unfold k1_pay2
  rw [divf_apply, addf_apply, addf_apply, blockdot_apply, Cert.LibKeepdims.broadcastTo_a1_ab_apply, addf_apply]
  unfold k1_pay4 k1_pay5
  rw [shapeCast_self, shapeCast_self]
  unfold Spec.hkAt
  refine congrArg (fun s => Ideal.div ((x3 (ix2 y q) + x2 (ix2 y q)) + s) (x4 (ix2 y (0 : Fin 1)) + Spec.oneW)) ?_
  refine Finset.sum_congr rfl fun k _ => ?_
  rw [truncf_apply, truncf_apply, pay_m]

end Cert.KernelIdeal.Combine

end
-- ==== Proof.KernelCombine.lean ====
/-
  Region 1's two output arrays after the run, from its blocks.

  Window by window: the five row-indexed operands' blocks at point `t` are rows `2000 t … 2000 t + 1999` of their
  arrays, the six small operands' blocks are their whole arrays at every point, and each output's block `t` is rows
  `2000 t …` of its array. What point `t` writes back is therefore block `t` of the specification's whole array
  (a row of the result depends only on the same row of the row-indexed operands), and the fifty blocks tile each
  output. All of it holds for whatever contents the region finds in its buffers (the parameter `V`).
-/
import proofs.«134339_j10866267259410_1_alg».proof.Proof.KernelCombinePay

set_option maxRecDepth 16384

noncomputable section

open Idealize.ShloMosaic Idealize.ShloMosaic.TcCoe Idealize.SL.Sem
open Idealize.ShloMosaic.Pipeline (Dat)

namespace Cert.KernelIdeal.Combine

open Cert.KernelIdeal Cert.KernelIdeal.Gen Idealize.ShloMosaic.ValueIdx
open Cert.KernelIdeal.Xw (hz)

variable (V : (c : Dev nD) → (b : Ref sig .tc) → Buf (Elt Ideal) ((c : Thread nD τ).loc b))

/-- Where the thirteen windows' blocks sit, decided over the grid: the row windows at block `t`, the small operands at
    block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_11.index t (0 : Fin 2) = t.val ∧ win1_11.index t (1 : Fin 2) = 0
    ∧ win1_12.index t (0 : Fin 2) = t.val ∧ win1_12.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Window 0's block at point `t` holds rows `2000 t …` of its array. -/
theorem blk0_apply (c : Dev nD) (t : Fin cfg1.N) (x : S2000x128.Idx) (k : S100000x128.Idx)
    (hk0 : (k 0).val = t.val * 2000 + (x 0).val) (hk1 : (k 1).val = (x 1).val) :
    (iblk1 V c 0 t : Vec Ideal S2000x128 .f32) x = (V c main_arg0 : S100000x128.Idx → EReal) k := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  unfold iblk1
  rw [View.read_apply]
  show V c main_arg0 _ = V c main_arg0 _
  refine congrArg (V c main_arg0) ?_
  funext a
  apply Fin.ext
  match a with
  | ⟨0, _⟩ => show win1_0.index t 0 * 2000 + 1 * (x 0).val = (k 0).val; rw [e0a, hk0]; omega
  | ⟨1, _⟩ => show win1_0.index t 1 * 128 + 1 * (x 1).val = (k 1).val; rw [e0b, hk1]; omega

/-- Window 1's block at point `t` holds rows `2000 t …` of its array. -/
theorem blk1_apply (c : Dev nD) (t : Fin cfg1.N) (x : S2000x128.Idx) (k : S100000x128.Idx)
    (hk0 : (k 0).val = t.val * 2000 + (x 0).val) (hk1 : (k 1).val = (x 1).val) :
    (iblk1 V c 1 t : Vec Ideal S2000x128 .f32) x = (V c main_v13 : S100000x128.Idx → EReal) k := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  unfold iblk1
  rw [View.read_apply]
  show V c main_v13 _ = V c main_v13 _
  refine congrArg (V c main_v13) ?_
  funext a
  apply Fin.ext
  match a with
  | ⟨0, _⟩ => show win1_1.index t 0 * 2000 + 1 * (x 0).val = (k 0).val; rw [e1a, hk0]; omega
  | ⟨1, _⟩ => show win1_1.index t 1 * 128 + 1 * (x 1).val = (k 1).val; rw [e1b, hk1]; omega

/-- Window 2's block at point `t` holds rows `2000 t …` of its array. -/
theorem blk2_apply (c : Dev nD) (t : Fin cfg1.N) (x : S2000x128.Idx) (k : S100000x128.Idx)
    (hk0 : (k 0).val = t.val * 2000 + (x 0).val) (hk1 : (k 1).val = (x 1).val) :
    (iblk1 V c 2 t : Vec Ideal S2000x128 .f32) x = (V c main_v0 : S100000x128.Idx → EReal) k := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  unfold iblk1
  rw [View.read_apply]
  show V c main_v0 _ = V c main_v0 _
  refine congrArg (V c main_v0) ?_
  funext a
  apply Fin.ext
  match a with
  | ⟨0, _⟩ => show win1_2.index t 0 * 2000 + 1 * (x 0).val = (k 0).val; rw [e2a, hk0]; omega
  | ⟨1, _⟩ => show win1_2.index t 1 * 128 + 1 * (x 1).val = (k 1).val; rw [e2b, hk1]; omega

/-- Window 3's block at point `t` holds rows `2000 t …` of its array. -/
theorem blk3_apply (c : Dev nD) (t : Fin cfg1.N) (x : S2000x128.Idx) (k : S100000x128.Idx)
    (hk0 : (k 0).val = t.val * 2000 + (x 0).val) (hk1 : (k 1).val = (x 1).val) :
    (iblk1 V c 3 t : Vec Ideal S2000x128 .f32) x = (V c main_v26 : S100000x128.Idx → EReal) k := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  unfold iblk1
  rw [View.read_apply]
  show V c main_v26 _ = V c main_v26 _
  refine congrArg (V c main_v26) ?_
  funext a
  apply Fin.ext
  match a with
  | ⟨0, _⟩ => show win1_3.index t 0 * 2000 + 1 * (x 0).val = (k 0).val; rw [e3a, hk0]; omega
  | ⟨1, _⟩ => show win1_3.index t 1 * 128 + 1 * (x 1).val = (k 1).val; rw [e3b, hk1]; omega

/-- Window 4's block at point `t` holds rows `2000 t …` of its array. -/
theorem blk4_apply (c : Dev nD) (t : Fin cfg1.N) (x : S2000x1.Idx) (k : S100000x1.Idx)
    (hk0 : (k 0).val = t.val * 2000 + (x 0).val) (hk1 : (k 1).val = (x 1).val) :
    (iblk1 V c 4 t : Vec Ideal S2000x1 .f32) x = (V c main_arg4 : S100000x1.Idx → EReal) k := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  unfold iblk1
  rw [View.read_apply]
  show V c main_arg4 _ = V c main_arg4 _
  refine congrArg (V c main_arg4) ?_
  funext a
  apply Fin.ext
  match a with
  | ⟨0, _⟩ => show win1_4.index t 0 * 2000 + 1 * (x 0).val = (k 0).val; rw [e4a, hk0]; omega
  | ⟨1, _⟩ => show win1_4.index t 1 * 1 + 1 * (x 1).val = (k 1).val; rw [e4b, hk1]; omega

/-- Window 5's block at every point is its whole array. -/
theorem blk5_eq (c : Dev nD) (t : Fin cfg1.N) :
    (iblk1 V c 5 t : Vec Ideal S128x128 .f32) = (V c main_v27 : S128x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_v27 _ = V c main_v27 _
  refine congrArg (V c main_v27) ?_
  funext a
  apply Fin.ext
  match a with
  | ⟨0, _⟩ => show win1_5.index t 0 * 128 + 1 * (x 0).val = (x 0).val; rw [e5a]; omega
  | ⟨1, _⟩ => show win1_5.index t 1 * 128 + 1 * (x 1).val = (x 1).val; rw [e5b]; omega

/-- Window 6's block at every point is its whole array. -/
theorem blk6_eq (c : Dev nD) (t : Fin cfg1.N) :
    (iblk1 V c 6 t : Vec Ideal S128x128 .f32) = (V c main_v28 : S128x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_v28 _ = V c main_v28 _
  refine congrArg (V c main_v28) ?_
  funext a
  apply Fin.ext
  match a with
  | ⟨0, _⟩ => show win1_6.index t 0 * 128 + 1 * (x 0).val = (x 0).val; rw [e6a]; omega
  | ⟨1, _⟩ => show win1_6.index t 1 * 128 + 1 * (x 1).val = (x 1).val; rw [e6b]; omega

/-- Window 7's block at every point is its whole array. -/
theorem blk7_eq (c : Dev nD) (t : Fin cfg1.N) :
    (iblk1 V c 7 t : Vec Ideal S128x128 .f32) = (V c main_v29 : S128x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_v29 _ = V c main_v29 _
  refine congrArg (V c main_v29) ?_
  funext a
  apply Fin.ext
  match a with
  | ⟨0, _⟩ => show win1_7.index t 0 * 128 + 1 * (x 0).val = (x 0).val; rw [e7a]; omega
  | ⟨1, _⟩ => show win1_7.index t 1 * 128 + 1 * (x 1).val = (x 1).val; rw [e7b]; omega

/-- Window 8's block at every point is its whole array. -/
theorem blk8_eq (c : Dev nD) (t : Fin cfg1.N) :
    (iblk1 V c 8 t : Vec Ideal S128x128 .f32) = (V c main_v30 : S128x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_v30 _ = V c main_v30 _
  refine congrArg (V c main_v30) ?_
  funext a
  apply Fin.ext
  match a with
  | ⟨0, _⟩ => show win1_8.index t 0 * 128 + 1 * (x 0).val = (x 0).val; rw [e8a]; omega
  | ⟨1, _⟩ => show win1_8.index t 1 * 128 + 1 * (x 1).val = (x 1).val; rw [e8b]; omega

/-- Window 9's block at every point is its whole array. -/
theorem blk9_eq (c : Dev nD) (t : Fin cfg1.N) :
    (iblk1 V c 9 t : Vec Ideal S1x128 .f32) = (V c main_arg9 : S1x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_arg9 _ = V c main_arg9 _
  refine congrArg (V c main_arg9) ?_
  funext a
  apply Fin.ext
  match a with
  | ⟨0, _⟩ => show win1_9.index t 0 * 1 + 1 * (x 0).val = (x 0).val; rw [e9a]; omega
  | ⟨1, _⟩ => show win1_9.index t 1 * 128 + 1 * (x 1).val = (x 1).val; rw [e9b]; omega

/-- Window 10's block at every point is its whole array. -/
theorem blk10_eq (c : Dev nD) (t : Fin cfg1.N) :
    (iblk1 V c 10 t : Vec Ideal S128x128 .f32) = (V c main_arg10 : S128x128.Idx → EReal) := by
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext x
  unfold iblk1
  rw [View.read_apply]
  show V c main_arg10 _ = V c main_arg10 _
  refine congrArg (V c main_arg10) ?_
  funext a
  apply Fin.ext
  match a with
  | ⟨0, _⟩ => show win1_10.index t 0 * 128 + 1 * (x 0).val = (x 0).val; rw [e10a]; omega
  | ⟨1, _⟩ => show win1_10.index t 1 * 128 + 1 * (x 1).val = (x 1).val; rw [e10b]; omega

/-- What point `t` writes back to the second output is block `t` of the whole message array. -/
theorem flushed_m (c : Dev nD) (t : Fin cfg1.N) :
    (dat1 V c).flushed 12 t = ((cfg1.win 12).blk t).view.read (Elt Ideal) (Spec.mArr (V c main_arg0 : S100000x128.Idx → EReal) (V c main_v13 : S100000x128.Idx → EReal) (V c main_v27 : S128x128.Idx → EReal) (V c main_v28 : S128x128.Idx → EReal) (V c main_v29 : S128x128.Idx → EReal) (V c main_v30 : S128x128.Idx → EReal) (V c main_arg9 : S1x128.Idx → EReal)) := by
  show (cfg1.win 12).cut (grid1.coords t) ((dat1 V c).after 12 t) = _
  rw [after1_12]
  unfold out1_12
  rw [View.canon_unit_zero hz]
  simp only [View.ld_unit_zero (S := S2000x128) hz, View.ld_unit_zero (S := S128x128) hz, View.ld_unit_zero (S := S2000x1) hz, View.ld_unit_zero (S := S1x128) hz]
  rw [blk5_eq V c t, blk6_eq V c t, blk7_eq V c t, blk8_eq V c t, blk9_eq V c t]
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext j
  rw [View.read_apply]
  have hrow : ((((cfg1.win 12).blk t).view.emb j) 0).val = t.val * 2000 + (j 0).val := by
    show win1_12.index t 0 * 2000 + 1 * (j 0).val = _; rw [e12a]; omega
  have hcol : ((((cfg1.win 12).blk t).view.emb j) 1).val = (j 1).val := by
    show win1_12.index t 1 * 128 + 1 * (j 1).val = _; rw [e12b]; omega
  rw [eq_ix2 j]
  refine (pay_m _ _ _ _ _ _ _ (j 0) (j 1)).trans ?_
  unfold Spec.mArr
  refine (Spec.mAt_congr (V c main_arg0 : S100000x128.Idx → EReal) (V c main_v13 : S100000x128.Idx → EReal) _ _ _ _ _ _ _
    ((((cfg1.win 12).blk t).view.emb j) 0) (j 0) (j 1)
    (fun k => blk0_apply V c t _ _ hrow rfl) (fun k => blk1_apply V c t _ _ hrow rfl)).trans ?_
  exact congrArg (Spec.mAt _ _ _ _ _ _ _ _) (Fin.ext hcol.symm)

/-- What point `t` writes back to the first output is block `t` of the whole combination array. -/
theorem flushed_hk (c : Dev nD) (t : Fin cfg1.N) :
    (dat1 V c).flushed 11 t = ((cfg1.win 11).blk t).view.read (Elt Ideal) (Spec.hkArr (V c main_arg0 : S100000x128.Idx → EReal) (V c main_v13 : S100000x128.Idx → EReal) (V c main_v0 : S100000x128.Idx → EReal) (V c main_v26 : S100000x128.Idx → EReal) (V c main_arg4 : S100000x1.Idx → EReal) (V c main_v27 : S128x128.Idx → EReal) (V c main_v28 : S128x128.Idx → EReal) (V c main_v29 : S128x128.Idx → EReal) (V c main_v30 : S128x128.Idx → EReal) (V c main_arg9 : S1x128.Idx → EReal) (V c main_arg10 : S128x128.Idx → EReal)) := by
  show (cfg1.win 11).cut (grid1.coords t) ((dat1 V c).after 11 t) = _
  rw [after1_11]
  unfold out1_11
  rw [View.canon_unit_zero hz]
  simp only [View.ld_unit_zero (S := S2000x128) hz, View.ld_unit_zero (S := S128x128) hz, View.ld_unit_zero (S := S2000x1) hz, View.ld_unit_zero (S := S1x128) hz]
  rw [blk5_eq V c t, blk6_eq V c t, blk7_eq V c t, blk8_eq V c t, blk9_eq V c t, blk10_eq V c t]
  obtain ⟨e0a, e0b, e1a, e1b, e2a, e2b, e3a, e3b, e4a, e4b, e11a, e11b, e12a, e12b, e5a, e5b, e6a, e6b, e7a, e7b, e8a, e8b, e9a, e9b, e10a, e10b⟩ := idx_facts t
  funext j
  rw [View.read_apply]
  have hrow : ((((cfg1.win 11).blk t).view.emb j) 0).val = t.val * 2000 + (j 0).val := by
    show win1_11.index t 0 * 2000 + 1 * (j 0).val = _; rw [e11a]; omega
  have hcol : ((((cfg1.win 11).blk t).view.emb j) 1).val = (j 1).val := by
    show win1_11.index t 1 * 128 + 1 * (j 1).val = _; rw [e11b]; omega
  rw [eq_ix2 j]
  refine (pay_hk _ _ _ _ _ _ _ _ _ _ _ (j 0) (j 1)).trans ?_
  unfold Spec.hkArr
  refine (Spec.hkAt_congr (V c main_arg0 : S100000x128.Idx → EReal) (V c main_v13 : S100000x128.Idx → EReal)
    (V c main_v0 : S100000x128.Idx → EReal) (V c main_v26 : S100000x128.Idx → EReal) (V c main_arg4 : S100000x1.Idx → EReal)
    _ _ _ _ _ _ _ _ _ _ _ ((((cfg1.win 11).blk t).view.emb j) 0) (j 0) (j 1)
    (fun k => blk0_apply V c t _ _ hrow rfl) (fun k => blk1_apply V c t _ _ hrow rfl)
    (fun k => blk2_apply V c t _ _ hrow rfl) (fun k => blk3_apply V c t _ _ hrow rfl)
    (blk4_apply V c t _ _ hrow rfl)).trans ?_
  exact congrArg (Spec.hkAt _ _ _ _ _ _ _ _ _ _ _ _) (Fin.ext hcol.symm)

/-- An index of output window 12's array is in point `t`'s block iff each coordinate is in the block's range. -/
theorem mem_blk12 (t : Fin cfg1.N) (i : S100000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v31_1).slice (win1_12.rect t)).set ↔ _
  rw [View.set_slice_whole, Rect.mem_set_unit]
  exact Iff.rfl

/-- The fifty blocks tile the array: row `r` is in block `r / 2000`. -/
theorem cover12 (i : S100000x128.Idx) : ∃ t : Fin cfg1.N, (cfg1.win 12).flush t = true ∧ i ∈ ((cfg1.win 12).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_12 _, ?_⟩
  obtain ⟨e0a, e0b, e1a, e1b, e2a, e2b, e3a, e3b, e4a, e4b, e11a, e11b, e12a, e12b, e5a, e5b, e6a, e6b, e7a, e7b, e8a, e8b, e9a, e9b, e10a, e10b⟩ := idx_facts ⟨(i 0).val / 2000, by rw [hN]; omega⟩
  rw [mem_blk12]
  intro a
  match a with
  | ⟨0, _⟩ =>
    show win1_12.index _ 0 * 2000 ≤ (i 0).val ∧ (i 0).val < win1_12.index _ 0 * 2000 + 2000
    rw [e12a]; show (i 0).val / 2000 * 2000 ≤ (i 0).val ∧ (i 0).val < (i 0).val / 2000 * 2000 + 2000; omega
  | ⟨1, _⟩ =>
    show win1_12.index _ 1 * 128 ≤ (i 1).val ∧ (i 1).val < win1_12.index _ 1 * 128 + 128
    rw [e12b]; omega

/-- An index of output window 11's array is in point `t`'s block iff each coordinate is in the block's range. -/
theorem mem_blk11 (t : Fin cfg1.N) (i : S100000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v31_0).slice (win1_11.rect t)).set ↔ _
  rw [View.set_slice_whole, Rect.mem_set_unit]
  exact Iff.rfl

/-- The fifty blocks tile the array: row `r` is in block `r / 2000`. -/
theorem cover11 (i : S100000x128.Idx) : ∃ t : Fin cfg1.N, (cfg1.win 11).flush t = true ∧ i ∈ ((cfg1.win 11).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_11 _, ?_⟩
  obtain ⟨e0a, e0b, e1a, e1b, e2a, e2b, e3a, e3b, e4a, e4b, e11a, e11b, e12a, e12b, e5a, e5b, e6a, e6b, e7a, e7b, e8a, e8b, e9a, e9b, e10a, e10b⟩ := idx_facts ⟨(i 0).val / 2000, by rw [hN]; omega⟩
  rw [mem_blk11]
  intro a
  match a with
  | ⟨0, _⟩ =>
    show win1_11.index _ 0 * 2000 ≤ (i 0).val ∧ (i 0).val < win1_11.index _ 0 * 2000 + 2000
    rw [e11a]; show (i 0).val / 2000 * 2000 ≤ (i 0).val ∧ (i 0).val < (i 0).val / 2000 * 2000 + 2000; omega
  | ⟨1, _⟩ =>
    show win1_11.index _ 1 * 128 ≤ (i 1).val ∧ (i 1).val < win1_11.index _ 1 * 128 + 128
    rw [e11b]; omega

/-- The second output array after region 1: the whole message array of what the region found. -/
theorem final_m (c : Dev nD) : (dat1 V c).arrAt 12 cfg1.N = Spec.mArr (V c main_arg0 : S100000x128.Idx → EReal) (V c main_v13 : S100000x128.Idx → EReal) (V c main_v27 : S128x128.Idx → EReal) (V c main_v28 : S128x128.Idx → EReal) (V c main_v29 : S128x128.Idx → EReal) (V c main_v30 : S128x128.Idx → EReal) (V c main_arg9 : S1x128.Idx → EReal) :=
  (dat1 V c).arrAt_eq_of_cover 12 _ (fun t _ => flushed_m V c t) cover12

/-- The first output array after region 1: the whole combination array of what the region found. -/
theorem final_hk (c : Dev nD) : (dat1 V c).arrAt 11 cfg1.N = Spec.hkArr (V c main_arg0 : S100000x128.Idx → EReal) (V c main_v13 : S100000x128.Idx → EReal) (V c main_v0 : S100000x128.Idx → EReal) (V c main_v26 : S100000x128.Idx → EReal) (V c main_arg4 : S100000x1.Idx → EReal) (V c main_v27 : S128x128.Idx → EReal) (V c main_v28 : S128x128.Idx → EReal) (V c main_v29 : S128x128.Idx → EReal) (V c main_v30 : S128x128.Idx → EReal) (V c main_arg9 : S1x128.Idx → EReal) (V c main_arg10 : S128x128.Idx → EReal) :=
  (dat1 V c).arrAt_eq_of_cover 11 _ (fun t _ => flushed_hk V c t) cover11

end Cert.KernelIdeal.Combine

end
-- ==== Proof.SpecSpmm.lean ====
/-
  The sparse aggregate `A · H` of a row-indexed array `H` over the edge list (rows `er`, columns `ec`, values `ev`),
  exactly as both programs spell it on the host: a negative column index is wrapped by the number of nodes, row
  `ec[e]` of `H` is gathered for each edge `e`, scaled by `ev[e]`, and accumulated into row `er[e]` of the zero
  array. It is one fixed function of `H`; nothing here opens it. The dimension records and the broadcast facts are
  parameters, so each program instantiates it at its own (the records carry no data beyond their literal fields).
-/
import Idealize.ShloMosaic.PureOps
import Idealize.ShloMosaic.PureOps.Ideal

noncomputable section

namespace Cert.Spec

open Idealize.ShloMosaic

abbrev SN : Shape := ⟨2, ![100000, 128]⟩
abbrev SE : Shape := ⟨1, ![1600000]⟩
abbrev SE1 : Shape := ⟨2, ![1600000, 1]⟩
abbrev SEN : Shape := ⟨2, ![1600000, 128]⟩
abbrev S0 : Shape := ⟨0, ![]⟩

/-- `spmm … H`: the accumulating scatter, by edge rows, of the edge-scaled gathered rows of `H`. -/
def spmm (gd : GatherDims SN SE1 SEN) (sd : ScatterDims SN SE1 SEN)
    (h1 : SE.BroadcastsInDim SE1 (![0] : Fin 1 → Fin SE1.rank)) (h2 : S0.BroadcastsInDim SE (![] : Fin 0 → Fin SE.rank))
    (h3 : SE1.BroadcastsInDim SEN (![0, 1] : Fin 2 → Fin SEN.rank)) (h4 : S0.BroadcastsInDim SN (![] : Fin 0 → Fin SN.rank))
    (er ec : (⟨SE, .i32⟩ : BufTy).Contents (Elt Ideal)) (ev : (⟨SE, .f32⟩ : BufTy).Contents (Elt Ideal))
    (H : (⟨SN, .f32⟩ : BufTy).Contents (Elt Ideal)) : (⟨SN, .f32⟩ : BufTy).Contents (Elt Ideal) :=
  Host.scatterAdd sd
    (broadcastInDim SN ![] h4 (constant (F := Ideal) S0 .f32 0x00000000#32))
    (broadcastInDim SE1 ![0] h1 er)
    (mulf (broadcastInDim SEN ![0, 1] h3 (broadcastInDim SE1 ![0] h1 ev))
      (Host.gather gd H (broadcastInDim SE1 ![0] h1
        (select (cmpi .slt ec (broadcastInDim SE ![] h2 (constantI S0 32 0#32)))
          (addi ec (broadcastInDim SE ![] h2 (constantI S0 32 100000#32))) ec))))

end Cert.Spec

end
-- ==== Proof.KernelHost.lean ====
/-
  What region 1 finds in its buffers.

  Between the two regions the program runs a stretch of host operations: the sparse aggregate of the features, the
  sparse aggregate of region 0's output, and the four transposes of the relation weights. None of them writes an
  argument or region 0's output, and region 0 itself writes only its output. Read back through the fold of buffer
  contents: at region 1's entry the features, the edge list, the normaliser, the relation row and the
  graph-convolution weight are as launched; region 0's output holds the whole product of the features by the
  graph-convolution weight; the two aggregate buffers hold the aggregate of the features and of that product; the
  four transposed weights hold the transposes of the launched weights.
-/
import proofs.«134339_j10866267259410_1_alg».proof.Proof.KernelXw
import proofs.«134339_j10866267259410_1_alg».proof.Proof.SpecSpmm
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStretch

open Cert.KernelIdeal Cert.KernelIdeal.Gen

/-- The sparse aggregate at this program's dimension records, over an edge list. -/
abbrev agg (er ec : (⟨S1600000, .i32⟩ : BufTy).Contents (Elt Ideal)) (ev : (⟨S1600000, .f32⟩ : BufTy).Contents (Elt Ideal))
    (H : (⟨S100000x128, .f32⟩ : BufTy).Contents (Elt Ideal)) : (⟨S100000x128, .f32⟩ : BufTy).Contents (Elt Ideal) :=
  Spec.spmm gather_S100000x128_S1600000x1_S1600000x128_1_0_n_n_0_1_1128 scatter_S100000x128_S1600000x1_S1600000x128_1_0_0_1
    bcast_S1600000_S1600000x1_0 bcast_S_S1600000 bcast_S1600000x1_S1600000x128_0_1 bcast_S_S100000x128 er ec ev H

/-- The transpose of a relation weight. -/
abbrev tr (w : (⟨S128x128, .f32⟩ : BufTy).Contents (Elt Ideal)) : (⟨S128x128, .f32⟩ : BufTy).Contents (Elt Ideal) :=
  transpose S128x128 [1, 0] w transposes_S128x128_S128x128_1_0

/-! ## The host stretch over any contents `W` -/

section Stretch
variable (W : Valuation τ sig (Elt Ideal))

theorem at_v13 : after (hostOps1 (F := Ideal)) W (Proc.devRef .tc main_v13)
    = agg (W (Proc.devRef .tc main_arg1)) (W (Proc.devRef .tc main_arg2)) (W (Proc.devRef .tc main_arg3)) (W (Proc.devRef .tc main_arg0)) := by
  after_results_simp
  rfl

theorem at_v26 : after (hostOps1 (F := Ideal)) W (Proc.devRef .tc main_v26)
    = agg (W (Proc.devRef .tc main_arg1)) (W (Proc.devRef .tc main_arg2)) (W (Proc.devRef .tc main_arg3)) (W (Proc.devRef .tc main_v0)) := by
  after_results_simp
  rfl

theorem at_v27 : after (hostOps1 (F := Ideal)) W (Proc.devRef .tc main_v27) = tr (W (Proc.devRef .tc main_arg5)) := by
  after_results_simp
theorem at_v28 : after (hostOps1 (F := Ideal)) W (Proc.devRef .tc main_v28) = tr (W (Proc.devRef .tc main_arg6)) := by
  after_results_simp
theorem at_v29 : after (hostOps1 (F := Ideal)) W (Proc.devRef .tc main_v29) = tr (W (Proc.devRef .tc main_arg7)) := by
  after_results_simp
theorem at_v30 : after (hostOps1 (F := Ideal)) W (Proc.devRef .tc main_v30) = tr (W (Proc.devRef .tc main_arg8)) := by
  after_results_simp
theorem at_arg0 : after (hostOps1 (F := Ideal)) W (Proc.devRef .tc main_arg0) = W (Proc.devRef .tc main_arg0) := by
  after_results_simp
theorem at_arg4 : after (hostOps1 (F := Ideal)) W (Proc.devRef .tc main_arg4) = W (Proc.devRef .tc main_arg4) := by
  after_results_simp
theorem at_arg9 : after (hostOps1 (F := Ideal)) W (Proc.devRef .tc main_arg9) = W (Proc.devRef .tc main_arg9) := by
  after_results_simp
theorem at_arg10 : after (hostOps1 (F := Ideal)) W (Proc.devRef .tc main_arg10) = W (Proc.devRef .tc main_arg10) := by
  after_results_simp
theorem at_v0 : after (hostOps1 (F := Ideal)) W (Proc.devRef .tc main_v0) = W (Proc.devRef .tc main_v0) := by
  after_results_simp

end Stretch

/-! ## The contents at region 0's exit -/

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg10 (c : Dev nD) : W1 m ρ c (Proc.devRef .tc main_arg10) = m ((c : Thread nD τ).loc main_arg10) :=
  (W1_arr m ρ c 1).trans (((dat0 (V0 m ρ) c).arrAt_in 1 rfl _).trans (A_eq0 (V0 m ρ) c 1))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)
theorem W1_arg9 (c : Dev nD) : W1 m ρ c (Proc.devRef .tc main_arg9) = m ((c : Thread nD τ).loc main_arg9) :=
  W1_of_ne m ρ c main_arg9 (by decide)

/-- Region 0's output at its exit: the whole product of the launched features by the launched weight. -/
theorem W1_v0 (c : Dev nD) : W1 m ρ c (Proc.devRef .tc main_v0)
    = Spec.dotArr (m ((c : Thread nD τ).loc main_arg0) : S100000x128.Idx → EReal) (m ((c : Thread nD τ).loc main_arg10) : S128x128.Idx → EReal) :=
  (W1_arr m ρ c 2).trans (Cert.KernelIdeal.Xw.final_xw (V0 m ρ) c)

/-! ## The contents at region 1's entry -/

/-- The launched arrays under the names the specification uses. -/
abbrev X (c : Dev nD) : Spec.Mat 100000 128 := m ((c : Thread nD τ).loc main_arg0)
abbrev GCW (c : Dev nD) : Spec.Mat 128 128 := m ((c : Thread nD τ).loc main_arg10)
/-- The aggregate over the launched edge list. -/
abbrev aggm (c : Dev nD) (H : Spec.Mat 100000 128) : Spec.Mat 100000 128 :=
  agg (m ((c : Thread nD τ).loc main_arg1)) (m ((c : Thread nD τ).loc main_arg2)) (m ((c : Thread nD τ).loc main_arg3)) H

theorem V2_arg0 (c : Dev nD) : V2 m ρ c main_arg0 = m ((c : Thread nD τ).loc main_arg0) :=
  (at_arg0 (W1 m ρ c)).trans (W1_arg0 m ρ c)
theorem V2_arg4 (c : Dev nD) : V2 m ρ c main_arg4 = m ((c : Thread nD τ).loc main_arg4) :=
  (at_arg4 (W1 m ρ c)).trans (W1_arg4 m ρ c)
theorem V2_arg9 (c : Dev nD) : V2 m ρ c main_arg9 = m ((c : Thread nD τ).loc main_arg9) :=
  (at_arg9 (W1 m ρ c)).trans (W1_arg9 m ρ c)
theorem V2_arg10 (c : Dev nD) : V2 m ρ c main_arg10 = m ((c : Thread nD τ).loc main_arg10) :=
  (at_arg10 (W1 m ρ c)).trans (W1_arg10 m ρ c)
theorem V2_v0 (c : Dev nD) : V2 m ρ c main_v0 = Spec.dotArr (X m c) (GCW m c) :=
  (at_v0 (W1 m ρ c)).trans (W1_v0 m ρ c)
theorem V2_v13 (c : Dev nD) : V2 m ρ c main_v13 = aggm m c (X m c) := by
  refine (at_v13 (W1 m ρ c)).trans ?_
  rw [W1_arg1, W1_arg2, W1_arg3, W1_arg0]
theorem V2_v26 (c : Dev nD) : V2 m ρ c main_v26 = aggm m c (Spec.dotArr (X m c) (GCW m c)) := by
  refine (at_v26 (W1 m ρ c)).trans ?_
  rw [W1_arg1, W1_arg2, W1_arg3, W1_v0]
theorem V2_v27 (c : Dev nD) : V2 m ρ c main_v27 = tr (m ((c : Thread nD τ).loc main_arg5)) := by
  refine (at_v27 (W1 m ρ c)).trans ?_; rw [W1_arg5]
theorem V2_v28 (c : Dev nD) : V2 m ρ c main_v28 = tr (m ((c : Thread nD τ).loc main_arg6)) := by
  refine (at_v28 (W1 m ρ c)).trans ?_; rw [W1_arg6]
theorem V2_v29 (c : Dev nD) : V2 m ρ c main_v29 = tr (m ((c : Thread nD τ).loc main_arg7)) := by
  refine (at_v29 (W1 m ρ c)).trans ?_; rw [W1_arg7]
theorem V2_v30 (c : Dev nD) : V2 m ρ c main_v30 = tr (m ((c : Thread nD τ).loc main_arg8)) := by
  refine (at_v30 (W1 m ρ c)).trans ?_; rw [W1_arg8]

end Cert.KernelIdeal.HostStretch

end
-- ==== Proof.KernelValue.lean ====
/-
  The idealized kernel program's two results as functions of its launched arguments.

  The second result buffer is region 1's second output array, the first its first. Region 1 leaves in them the
  specification's message and combination arrays of what it found in its operand buffers; and it found there the
  launched features `X`, normaliser, relation row and graph-convolution weight, the aggregate of `X`, the whole product
  `X · GCW` (region 0's output), the aggregate of that product, and the four transposed relation weights. Substituting:

    second result = m(X, agg X; Wg1ᵀ, Wg2ᵀ, Wb1ᵀ, Wb2ᵀ, r)
    first result  = h(X, agg X, X·GCW, agg (X·GCW), norm; Wg1ᵀ, Wg2ᵀ, Wb1ᵀ, Wb2ᵀ, r, GCW).
-/
import proofs.«134339_j10866267259410_1_alg».proof.Proof.KernelRun
import proofs.«134339_j10866267259410_1_alg».proof.Proof.KernelCombine
import proofs.«134339_j10866267259410_1_alg».proof.Proof.KernelHost

set_option maxRecDepth 16384

noncomputable section

open Idealize.ShloMosaic Idealize.ShloMosaic.TcCoe Idealize.SL.Sem

namespace Cert.KernelIdeal.Result

open Cert.KernelIdeal Cert.KernelIdeal.Gen Cert.KernelIdeal.HostStretch

variable (m : (ℓ : Loc nD τ sig) → Buf (Elt Ideal) ℓ) (ρ : Dev nD → PrngReg)

/-- The message array of the launched arguments. -/
abbrev mOut (c : Dev nD) : Spec.Mat 100000 128 :=
  Spec.mArr (X m c) (aggm m c (X m c)) (tr (m ((c : Thread nD τ).loc main_arg5))) (tr (m ((c : Thread nD τ).loc main_arg6)))
    (tr (m ((c : Thread nD τ).loc main_arg7))) (tr (m ((c : Thread nD τ).loc main_arg8))) (m ((c : Thread nD τ).loc main_arg9))

/-- The combination array of the launched arguments. -/
abbrev hkOut (c : Dev nD) : Spec.Mat 100000 128 :=
  Spec.hkArr (X m c) (aggm m c (X m c)) (Spec.dotArr (X m c) (GCW m c)) (aggm m c (Spec.dotArr (X m c) (GCW m c)))
    (m ((c : Thread nD τ).loc main_arg4)) (tr (m ((c : Thread nD τ).loc main_arg5))) (tr (m ((c : Thread nD τ).loc main_arg6)))
    (tr (m ((c : Thread nD τ).loc main_arg7))) (tr (m ((c : Thread nD τ).loc main_arg8))) (m ((c : Thread nD τ).loc main_arg9)) (GCW m c)

theorem out_m (c : Dev nD) : W3 m ρ c (Proc.devRef .tc main_v31_1) = mOut m c := by
  refine (W3_arr m ρ c 12).trans ?_
  rw [Cert.KernelIdeal.Combine.final_m (V2 m ρ) c, V2_arg0, V2_v13, V2_v27, V2_v28, V2_v29, V2_v30, V2_arg9]

theorem out_hk (c : Dev nD) : W3 m ρ c (Proc.devRef .tc main_v31_0) = hkOut m c := by
  refine (W3_arr m ρ c 11).trans ?_
  rw [Cert.KernelIdeal.Combine.final_hk (V2 m ρ) c, V2_arg0, V2_v13, V2_v0, V2_v26, V2_arg4, V2_v27, V2_v28, V2_v29, V2_v30,
    V2_arg9, V2_arg10]

/-- Every weakly fair execution terminates without a fault, with the two results at the specification's arrays of
    the launched arguments and the arguments as launched. -/
theorem run : θ_run (defs (F := Ideal)) (onTc (τ := τ) (main (F := Ideal))) ⟨m, fun _ => 0, ρ⟩ (fun r => ∀ c : Dev nD,
      r.2.mem ((c.tc : Thread nD τ).loc main_v31_0) = hkOut m c
      ∧ r.2.mem ((c.tc : Thread nD τ).loc main_v31_1) = mOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_hk m ρ c), (h c).2.1.trans (out_m m ρ c), (h c).2.2⟩)
    (Cert.KernelIdeal.Named.run m ρ)

end Cert.KernelIdeal.Result

end
-- ==== Proof.RefRun.lean ====
/-
  The reference's host program as one straight line of operations, and its run.

  The program is sixty-one operations of its own and two calls of the leaky rectifier, each call six operations and
  a nested selection; a call executes the callee's body on the operands, so the line lists the callee's seven
  operations in the call's place, over the buffers that call names. Every weakly fair execution from a memory with
  zero counters terminates with every buffer at the fold of the operations over the launch contents.
-/
import proofs.«134339_j10866267259410_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The seventy-five operations, in order: the first aggregate (twelve operations), the two gates (each two
    transposes, two products, a sum, the slope constant and the rectifier's seven), the message, the two
    projections, the second aggregate, and the normalised combination. -/
abbrev ops : List (HloOp τ sig (Elt F)) :=
  [ unary main_arg3 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg2 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg1 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v13 ((transpose S128x128 [1, 0] · transposes_S128x128_S128x128_1_0) : (⟨S128x128, .f32⟩ : BufTy).Contents (Elt F) → (⟨S128x128, .f32⟩ : BufTy).Contents (Elt F)),
    binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v15 ((transpose S128x128 [1, 0] · transposes_S128x128_S128x128_1_0) : (⟨S128x128, .f32⟩ : BufTy).Contents (Elt F) → (⟨S128x128, .f32⟩ : BufTy).Contents (Elt F)),
    binary main_v12 main_v15 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    nullary main_call0_cst (constant S_ .f32 0x00000000#32),
    unary main_call0_cst main_call0_v0 (broadcastInDim S100000x128 ![] bcast_S_S100000x128 : (⟨S_, .f32⟩ : BufTy).Contents (Elt F) → (⟨S100000x128, .f32⟩ : BufTy).Contents (Elt F)),
    binary main_v17 main_call0_v0 main_call0_v1 (cmpf .oge : (⟨S100000x128, .f32⟩ : BufTy).Contents (Elt F) → (⟨S100000x128, .f32⟩ : BufTy).Contents (Elt F) → (⟨S100000x128, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S100000x128 ![] bcast_S_S100000x128 : (⟨S_, .f32⟩ : BufTy).Contents (Elt F) → (⟨S100000x128, .f32⟩ : BufTy).Contents (Elt F)),
    binary main_call0_v3 main_v17 main_call0_v4 (mulf : (⟨S100000x128, .f32⟩ : BufTy).Contents (Elt F) → (⟨S100000x128, .f32⟩ : BufTy).Contents (Elt F) → (⟨S100000x128, .f32⟩ : BufTy).Contents (Elt F)),
    ternary main_call0_v1 main_v17 main_call0_v4 main_v18 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    nullary main_cst_2 (constant S_ .f32 0x3F800000#32),
    unary main_cst_2 main_v19 (broadcastInDim S100000x128 ![] bcast_S_S100000x128 : (⟨S_, .f32⟩ : BufTy).Contents (Elt F) → (⟨S100000x128, .f32⟩ : BufTy).Contents (Elt F)),
    binary main_v18 main_v19 main_v20 (addf : (⟨S100000x128, .f32⟩ : BufTy).Contents (Elt F) → (⟨S100000x128, .f32⟩ : BufTy).Contents (Elt F) → (⟨S100000x128, .f32⟩ : BufTy).Contents (Elt F)),
    unary main_arg7 main_v21 ((transpose S128x128 [1, 0] · transposes_S128x128_S128x128_1_0) : (⟨S128x128, .f32⟩ : BufTy).Contents (Elt F) → (⟨S128x128, .f32⟩ : BufTy).Contents (Elt F)),
    binary main_arg0 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v23 ((transpose S128x128 [1, 0] · transposes_S128x128_S128x128_1_0) : (⟨S128x128, .f32⟩ : BufTy).Contents (Elt F) → (⟨S128x128, .f32⟩ : BufTy).Contents (Elt F)),
    binary main_v12 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3E4CCCCD#32),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v25 main_call1_v0 main_call1_v1 (cmpf .oge : (⟨S100000x128, .f32⟩ : BufTy).Contents (Elt F) → (⟨S100000x128, .f32⟩ : BufTy).Contents (Elt F) → (⟨S100000x128, .i1⟩ : BufTy).Contents (Elt F)),
    unary main_cst_3 main_call1_v2 (id : (⟨S_, .f32⟩ : BufTy).Contents (Elt F) → (⟨S_, .f32⟩ : BufTy).Contents (Elt F)),
    unary main_call1_v2 main_call1_v3 (broadcastInDim S100000x128 ![] bcast_S_S100000x128 : (⟨S_, .f32⟩ : BufTy).Contents (Elt F) → (⟨S100000x128, .f32⟩ : BufTy).Contents (Elt F)),
    binary main_call1_v3 main_v25 main_call1_v4 (mulf : (⟨S100000x128, .f32⟩ : BufTy).Contents (Elt F) → (⟨S100000x128, .f32⟩ : BufTy).Contents (Elt F) → (⟨S100000x128, .f32⟩ : BufTy).Contents (Elt F)),
    ternary main_call1_v1 main_v25 main_call1_v4 main_v26 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    unary main_arg9 main_v27 (broadcastInDim S100000x128 ![0, 1] bcast_S1x128_S100000x128_0_1 : (⟨S1x128, .f32⟩ : BufTy).Contents (Elt F) → (⟨S100000x128, .f32⟩ : BufTy).Contents (Elt F)),
    binary main_v20 main_v27 main_v28 (mulf : (⟨S100000x128, .f32⟩ : BufTy).Contents (Elt F) → (⟨S100000x128, .f32⟩ : BufTy).Contents (Elt F) → (⟨S100000x128, .f32⟩ : BufTy).Contents (Elt F)),
    binary main_v28 main_v26 main_v29 (addf : (⟨S100000x128, .f32⟩ : BufTy).Contents (Elt F) → (⟨S100000x128, .f32⟩ : BufTy).Contents (Elt F) → (⟨S100000x128, .f32⟩ : BufTy).Contents (Elt F)),
    binary main_arg0 main_v29 main_v30 (addf : (⟨S100000x128, .f32⟩ : BufTy).Contents (Elt F) → (⟨S100000x128, .f32⟩ : BufTy).Contents (Elt F) → (⟨S100000x128, .f32⟩ : BufTy).Contents (Elt F)),
    binary main_v30 main_v12 main_v31 (subf : (⟨S100000x128, .f32⟩ : BufTy).Contents (Elt F) → (⟨S100000x128, .f32⟩ : BufTy).Contents (Elt F) → (⟨S100000x128, .f32⟩ : BufTy).Contents (Elt F)),
    binary main_v31 main_arg10 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg10 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v34 (broadcastInDim S1600000x1 ![0] bcast_S1600000_S1600000x1_0 : (⟨S1600000, .f32⟩ : BufTy).Contents (Elt F) → (⟨S1600000x1, .f32⟩ : BufTy).Contents (Elt F)),
    nullary main_c_4 (constantI S_ 32 0#32),
    unary main_c_4 main_v35 (broadcastInDim S1600000 ![] bcast_S_S1600000 : (⟨S_, .i32⟩ : BufTy).Contents (Elt F) → (⟨S1600000, .i32⟩ : BufTy).Contents (Elt F)),
    binary main_arg2 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v37 (broadcastInDim S1600000 ![] bcast_S_S1600000 : (⟨S_, .i32⟩ : BufTy).Contents (Elt F) → (⟨S1600000, .i32⟩ : BufTy).Contents (Elt F)),
    binary main_arg2 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg2 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v33 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v34 main_v42 (broadcastInDim S1600000x128 ![0, 1] bcast_S1600000x1_S1600000x128_0_1 : (⟨S1600000x1, .f32⟩ : BufTy).Contents (Elt F) → (⟨S1600000x128, .f32⟩ : BufTy).Contents (Elt F)),
    binary main_v42 main_v41 main_v43 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v44 (broadcastInDim S100000x128 ![] bcast_S_S100000x128 : (⟨S_, .f32⟩ : BufTy).Contents (Elt F) → (⟨S100000x128, .f32⟩ : BufTy).Contents (Elt F)),
    unary main_arg1 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v46 main_v33 main_v47 (addf : (⟨S100000x128, .f32⟩ : BufTy).Contents (Elt F) → (⟨S100000x128, .f32⟩ : BufTy).Contents (Elt F) → (⟨S100000x128, .f32⟩ : BufTy).Contents (Elt F)),
    binary main_v47 main_v32 main_v48 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3F800000#32),
    unary main_cst_7 main_v49 (broadcastInDim S100000x1 ![] bcast_S_S100000x1 : (⟨S_, .f32⟩ : BufTy).Contents (Elt F) → (⟨S100000x1, .f32⟩ : BufTy).Contents (Elt F)),
    binary main_arg4 main_v49 main_v50 (addf : (⟨S100000x1, .f32⟩ : BufTy).Contents (Elt F) → (⟨S100000x1, .f32⟩ : BufTy).Contents (Elt F) → (⟨S100000x1, .f32⟩ : BufTy).Contents (Elt F)),
    unary main_v50 main_v51 (broadcastInDim S100000x128 ![0, 1] bcast_S100000x1_S100000x128_0_1 : (⟨S100000x1, .f32⟩ : BufTy).Contents (Elt F) → (⟨S100000x128, .f32⟩ : BufTy).Contents (Elt F)),
    binary main_v48 main_v51 main_v52 (Host.divf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- The program is that line: its two windows, the rectifier's body and the selection's body unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., binary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., unary_bufs_sub .., binary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., binary_bufs_sub .., binary_bufs_sub ..,
    binary_bufs_sub .., binary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., binary_bufs_sub .., binary_bufs_sub .., nullary_bufs_sub .., unary_bufs_sub ..,
    binary_bufs_sub .., unary_bufs_sub .., binary_bufs_sub ..⟩

set_option maxRecDepth 8192 in
set_option maxHeartbeats 4000000 in
/-- On every device, for any float values, from any memory with zero counters: every weakly fair execution of the
    program terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«134339_j10866267259410_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.RefTerm.lean ====
/-
  The reference's two results as terms of the arguments, and those terms read entry by entry.

  The message is  X + ((ρ(X·WG1ᵀ + N·WG2ᵀ) + 1) ⊙ R + ρ(X·WB1ᵀ + N·WB2ᵀ)) − N  with ρ the leaky rectifier and N the
  aggregate of X; the combination is  ((agg(X·GCW) + X·GCW) + m·GCW) / (NORM + 1)  with the divisor's column repeated
  along each row. Every operation but the products and the two shaped broadcasts acts entry by entry; a product's
  entry is the sum over the contracted index; the row broadcast reads its one row, the column broadcast the entry of
  its row. So each result's entry (p, q) is the specification's.
-/
import proofs.«134339_j10866267259410_1_alg».proof.Proof.Gen.ReferenceIdeal
import proofs.«134339_j10866267259410_1_alg».proof.Proof.Spec
import proofs.«134339_j10866267259410_1_alg».proof.Proof.SpecSpmm
import proofs.«134339_j10866267259410_1_alg».proof.Proof.LibDotRead
import Idealize.ShloMosaic.Lib.Pipeline.Value

noncomputable section

namespace Cert.ReferenceIdeal.RefValue

open Cert.ReferenceIdeal Cert.ReferenceIdeal.Gen Idealize.ShloMosaic Idealize.ShloMosaic.ValueIdx Idealize.ShloMosaic.MatmulRead
open scoped BigOperators

/-- The arrays' types: nodes × features, weights, the relation row, the normaliser column, the edge lists. -/
abbrev AN : Type := FVec Ideal S100000x128 .f32
abbrev AW : Type := FVec Ideal S128x128 .f32
abbrev AR : Type := FVec Ideal S1x128 .f32
abbrev AC : Type := FVec Ideal S100000x1 .f32
abbrev AEi : Type := IVec S1600000 32
abbrev AEf : Type := FVec Ideal S1600000 .f32

/-- The sparse aggregate over the edge list, at the program's own dimension records. -/
abbrev agg (er ec : AEi) (ev : AEf) (H : AN) : AN :=
  Cert.Spec.spmm gather_S100000x128_S1600000x1_S1600000x128_1_0_n_n_0_1_1128 scatter_S100000x128_S1600000x1_S1600000x128_1_0_0_1
    bcast_S1600000_S1600000x1_0 bcast_S_S1600000 bcast_S1600000x1_S1600000x128_0_1 bcast_S_S100000x128 er ec ev H

/-- The host product of a nodes × features array by a weight. -/
abbrev dotH (L : AN) (W : AW) : AN := Host.dotGeneral dot_S100000x128_S128x128_S100000x128_1_0_0_1_n_n none L W

/-- A scalar word repeated over the nodes × features array. -/
abbrev splat (w : BitVec 32) : AN :=
  broadcastInDim S100000x128 ![] bcast_S_S100000x128 (constant (F := Ideal) S_ .f32 w)

/-- The leaky rectifier on a whole array, as the program spells it: the comparison with the repeated zero, the
    repeated slope times the argument, the selection between the argument and that product. -/
def lreluArr (Z : AN) : AN :=
  select (cmpf .oge Z (splat 0x00000000#32)) Z
    (mulf (broadcastInDim S100000x128 ![] bcast_S_S100000x128 (id (constant (F := Ideal) S_ .f32 0x3E4CCCCD#32))) Z)

/-- The message as the program composes it, from the features, their aggregate, the four (transposed) weights and
    the relation row. -/
def mRef (X N : AN) (WG1 WG2 WB1 WB2 : AW) (R : AR) : AN :=
  subf (addf X (addf (mulf (addf (lreluArr (addf (dotH X WG1) (dotH N WG2))) (splat 0x3F800000#32))
      (broadcastInDim S100000x128 ![0, 1] bcast_S1x128_S100000x128_0_1 R))
    (lreluArr (addf (dotH X WB1) (dotH N WB2))))) N

/-- The normalised combination as the program composes it, from the projected features, their aggregate, the
    message, the normaliser column and the weight. -/
def hRef (XW NXW M : AN) (NORM : AC) (GCW : AW) : AN :=
  Host.divf (addf (addf NXW XW) (dotH M GCW))
    (broadcastInDim S100000x128 ![0, 1] bcast_S100000x1_S100000x128_0_1
      (addf NORM (broadcastInDim S100000x1 ![] bcast_S_S100000x1 (constant (F := Ideal) S_ .f32 0x3F800000#32))))

/-! ## The non-pointwise operations at an entry -/

/-- A repeated scalar reads the scalar everywhere. -/
theorem bcast0_apply {α : Type} (t : Shape) (h : S_.BroadcastsInDim t (![] : Fin 0 → Fin t.rank)) (x : S_.Idx → α) (j : t.Idx) :
    broadcastInDim t ![] h x j = x ix0 :=
  broadcastInDim_apply ![] h x j ix0 fun a => a.elim0

/-- A repeated word reads, everywhere, the extended real the word encodes. -/
theorem splat_apply (w : BitVec 32) (j : S100000x128.Idx) : splat w j = Ideal.ofBits .f32 w := rfl

/-- The relation row repeated over the nodes reads, at (p, q), the row's entry q. -/
theorem bcastRow_apply (R : AR) (p : Fin 100000) (q : Fin 128) :
    broadcastInDim S100000x128 ![0, 1] bcast_S1x128_S100000x128_0_1 R (ix2 p q) = R (ix2 (0 : Fin 1) q) :=
  broadcastInDim_apply _ _ R _ _ fun a => by
    match a with
    | ⟨0, _⟩ => rfl
    | ⟨1, _⟩ => rfl

/-- A column repeated along the features reads, at (p, q), the column's entry of row p. -/
theorem bcastCol_apply (v : AC) (p : Fin 100000) (q : Fin 128) :
    broadcastInDim S100000x128 ![0, 1] bcast_S100000x1_S100000x128_0_1 v (ix2 p q) = v (ix2 p (0 : Fin 1)) :=
  broadcastInDim_apply _ _ v _ _ fun a => by
    match a with
    | ⟨0, _⟩ => rfl
    | ⟨1, _⟩ => rfl

/-- The program's product record contracts the left operand's second axis with the right operand's first. -/
theorem rbc : RowsByCols dot_S100000x128_S128x128_S100000x128_1_0_0_1_n_n := ⟨rfl, rfl, rfl, rfl, rfl, rfl⟩

/-- The host product at an entry: the sum over the contracted index. -/
theorem dotH_apply (L : AN) (W : AW) (p : Fin 100000) (q : Fin 128) : dotH L W (ix2 p q) = Cert.Spec.dotAt L W p q :=
  hostDot_ix2 rbc rfl rfl none L W p q

/-- The host product as a whole array. -/
theorem dotH_eq (L : AN) (W : AW) : dotH L W = Cert.Spec.dotArr L W := by
  funext j
  rw [eq_ix2 j]
  exact dotH_apply L W (j 0) (j 1)

/-- The rectifier at an entry. -/
theorem lreluArr_apply (Z : AN) (j : S100000x128.Idx) : lreluArr Z j = Cert.Spec.lrelu (Z j) := rfl

/-- The host quotient at an entry. -/
theorem hostDivf_apply (a b : AN) (j : S100000x128.Idx) : Host.divf a b j = Ideal.div (a j) (b j) := rfl

/-! ## The two results, entry by entry -/

theorem mRef_eq (X N : AN) (WG1 WG2 WB1 WB2 : AW) (R : AR) :
    mRef X N WG1 WG2 WB1 WB2 R = Cert.Spec.mArr X N WG1 WG2 WB1 WB2 R := by
  funext j
  obtain ⟨p, q, rfl⟩ : ∃ (p : Fin 100000) (q : Fin 128), j = ix2 p q := ⟨j 0, j 1, eq_ix2 j⟩
  rw [Cert.Spec.mArr_ix2]
  unfold mRef Cert.Spec.mAt
  simp only [subf_apply, addf_apply, mulf_apply, lreluArr_apply, dotH_apply, splat_apply]
  rw [bcastRow_apply R p q]

theorem hRef_eq (X N XW NXW : AN) (NORM : AC) (WG1 WG2 WB1 WB2 : AW) (R : AR) (GCW : AW) :
    hRef XW NXW (Cert.Spec.mArr X N WG1 WG2 WB1 WB2 R) NORM GCW
      = Cert.Spec.hkArr X N XW NXW NORM WG1 WG2 WB1 WB2 R GCW := by
  funext j
  obtain ⟨p, q, rfl⟩ : ∃ (p : Fin 100000) (q : Fin 128), j = ix2 p q := ⟨j 0, j 1, eq_ix2 j⟩
  rw [Cert.Spec.hkArr_ix2]
  unfold hRef Cert.Spec.hkAt
  rw [hostDivf_apply, bcastCol_apply, addf_apply, addf_apply, dotH_apply]
  rfl

end Cert.ReferenceIdeal.RefValue

end
-- ==== Proof.RefValueA.lean ====
/-
  The fold of the reference's operations read at its two result buffers and at its arguments.

  At the message's buffer the fold is the message's term of the arguments' contents, at the combination's buffer the
  combination's term (the operations compose in program order, each reading the buffers written before it); no
  operation writes an argument, so each argument's buffer keeps its contents. The aggregate's chain of operations
  is carried as the one function of the gathered-from array, at both of its uses.
-/
import proofs.«134339_j10866267259410_1_alg».proof.Proof.RefRun
import proofs.«134339_j10866267259410_1_alg».proof.Proof.RefTerm

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

/-- A weight transposed, as the program transposes it. -/
abbrev tr (W : AW) : AW := transpose S128x128 [1, 0] W transposes_S128x128_S128x128_1_0

variable (V : Valuation τ sig (Elt Ideal))

set_option maxRecDepth 8192 in
set_option maxHeartbeats 30000000 in
/-- The message's buffer after the operations. -/
theorem after_v31 : after (ops (F := Ideal)) V (main_v31 : DevRef τ sig) = (mRef (V (main_arg0 : DevRef τ sig)) (agg (V (main_arg1 : DevRef τ sig)) (V (main_arg2 : DevRef τ sig)) (V (main_arg3 : DevRef τ sig)) (V (main_arg0 : DevRef τ sig))) (tr (V (main_arg5 : DevRef τ sig))) (tr (V (main_arg6 : DevRef τ sig))) (tr (V (main_arg7 : DevRef τ sig))) (tr (V (main_arg8 : DevRef τ sig))) (V (main_arg9 : DevRef τ sig))) := by
  after_results_simp <;> rfl

set_option maxRecDepth 8192 in
set_option maxHeartbeats 30000000 in
/-- The combination's buffer after the operations. -/
theorem after_v52 : after (ops (F := Ideal)) V (main_v52 : DevRef τ sig)
    = hRef (dotH (V (main_arg0 : DevRef τ sig)) (V (main_arg10 : DevRef τ sig))) (agg (V (main_arg1 : DevRef τ sig)) (V (main_arg2 : DevRef τ sig)) (V (main_arg3 : DevRef τ sig)) (dotH (V (main_arg0 : DevRef τ sig)) (V (main_arg10 : DevRef τ sig)))) (mRef (V (main_arg0 : DevRef τ sig)) (agg (V (main_arg1 : DevRef τ sig)) (V (main_arg2 : DevRef τ sig)) (V (main_arg3 : DevRef τ sig)) (V (main_arg0 : DevRef τ sig))) (tr (V (main_arg5 : DevRef τ sig))) (tr (V (main_arg6 : DevRef τ sig))) (tr (V (main_arg7 : DevRef τ sig))) (tr (V (main_arg8 : DevRef τ sig))) (V (main_arg9 : DevRef τ sig))) (V (main_arg4 : DevRef τ sig)) (V (main_arg10 : DevRef τ sig)) := by
  after_results_simp <;> rfl

set_option maxRecDepth 8192 in
set_option maxHeartbeats 30000000 in
theorem after_arg0 : after (ops (F := Ideal)) V (main_arg0 : DevRef τ sig) = V (main_arg0 : DevRef τ sig) := by
  after_results_simp

set_option maxRecDepth 8192 in
set_option maxHeartbeats 30000000 in
theorem after_arg1 : after (ops (F := Ideal)) V (main_arg1 : DevRef τ sig) = V (main_arg1 : DevRef τ sig) := by
  after_results_simp

set_option maxRecDepth 8192 in
set_option maxHeartbeats 30000000 in
theorem after_arg2 : after (ops (F := Ideal)) V (main_arg2 : DevRef τ sig) = V (main_arg2 : DevRef τ sig) := by
  after_results_simp

set_option maxRecDepth 8192 in
set_option maxHeartbeats 30000000 in
theorem after_arg3 : after (ops (F := Ideal)) V (main_arg3 : DevRef τ sig) = V (main_arg3 : DevRef τ sig) := by
  after_results_simp

set_option maxRecDepth 8192 in
set_option maxHeartbeats 30000000 in
theorem after_arg4 : after (ops (F := Ideal)) V (main_arg4 : DevRef τ sig) = V (main_arg4 : DevRef τ sig) := by
  after_results_simp

set_option maxRecDepth 8192 in
set_option maxHeartbeats 30000000 in
theorem after_arg5 : after (ops (F := Ideal)) V (main_arg5 : DevRef τ sig) = V (main_arg5 : DevRef τ sig) := by
  after_results_simp

set_option maxRecDepth 8192 in
set_option maxHeartbeats 30000000 in
theorem after_arg6 : after (ops (F := Ideal)) V (main_arg6 : DevRef τ sig) = V (main_arg6 : DevRef τ sig) := by
  after_results_simp

set_option maxRecDepth 8192 in
set_option maxHeartbeats 30000000 in
theorem after_arg7 : after (ops (F := Ideal)) V (main_arg7 : DevRef τ sig) = V (main_arg7 : DevRef τ sig) := by
  after_results_simp

set_option maxRecDepth 8192 in
set_option maxHeartbeats 30000000 in
theorem after_arg8 : after (ops (F := Ideal)) V (main_arg8 : DevRef τ sig) = V (main_arg8 : DevRef τ sig) := by
  after_results_simp

set_option maxRecDepth 8192 in
set_option maxHeartbeats 30000000 in
theorem after_arg9 : after (ops (F := Ideal)) V (main_arg9 : DevRef τ sig) = V (main_arg9 : DevRef τ sig) := by
  after_results_simp

set_option maxRecDepth 8192 in
set_option maxHeartbeats 30000000 in
theorem after_arg10 : after (ops (F := Ideal)) V (main_arg10 : DevRef τ sig) = V (main_arg10 : DevRef τ sig) := by
  after_results_simp

end Cert.ReferenceIdeal.RefValue

end
-- ==== Proof.RefValue.lean ====
/-
  The reference's run, read against the specification.

  Every weakly fair execution of the reference from a memory with zero counters terminates; the combination's buffer
  then holds the specification's normalised combination and the message's buffer the specification's message, both
  of the launch contents of the arguments (the four relation weights transposed, the aggregate the one function of
  the gathered-from array), and every argument's buffer holds what it held.
-/
import proofs.«134339_j10866267259410_1_alg».proof.Proof.RefValueA

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

/-- The message's buffer after the operations is the specification's message of the arguments' contents. -/
theorem res_v31 (V : Valuation τ sig (Elt Ideal)) :
    after (ops (F := Ideal)) V (main_v31 : DevRef τ sig)
      = Cert.Spec.mArr (a := 100000) (V (main_arg0 : DevRef τ sig)) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (V (main_arg1 : DevRef τ sig)) (V (main_arg2 : DevRef τ sig)) (V (main_arg3 : DevRef τ sig)) (V (main_arg0 : DevRef τ sig))) (transpose S128x128 [1, 0] (V (main_arg5 : DevRef τ sig)) transposes_S128x128_S128x128_1_0) (transpose S128x128 [1, 0] (V (main_arg6 : DevRef τ sig)) transposes_S128x128_S128x128_1_0) (transpose S128x128 [1, 0] (V (main_arg7 : DevRef τ sig)) transposes_S128x128_S128x128_1_0) (transpose S128x128 [1, 0] (V (main_arg8 : DevRef τ sig)) transposes_S128x128_S128x128_1_0) (V (main_arg9 : DevRef τ sig)) := by
  rw [after_v31]
  exact mRef_eq ..

/-- The combination's buffer after the operations is the specification's combination of the arguments' contents:
    the projected features are the product array, the message the specification's. -/
theorem res_v52 (V : Valuation τ sig (Elt Ideal)) :
    after (ops (F := Ideal)) V (main_v52 : DevRef τ sig)
      = Cert.Spec.hkArr (a := 100000) (V (main_arg0 : DevRef τ sig)) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (V (main_arg1 : DevRef τ sig)) (V (main_arg2 : DevRef τ sig)) (V (main_arg3 : DevRef τ sig)) (V (main_arg0 : DevRef τ sig))) (Cert.Spec.dotArr (a := 100000) (V (main_arg0 : DevRef τ sig)) (V (main_arg10 : DevRef τ sig))) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (V (main_arg1 : DevRef τ sig)) (V (main_arg2 : DevRef τ sig)) (V (main_arg3 : DevRef τ sig)) (Cert.Spec.dotArr (a := 100000) (V (main_arg0 : DevRef τ sig)) (V (main_arg10 : DevRef τ sig)))) (V (main_arg4 : DevRef τ sig)) (transpose S128x128 [1, 0] (V (main_arg5 : DevRef τ sig)) transposes_S128x128_S128x128_1_0) (transpose S128x128 [1, 0] (V (main_arg6 : DevRef τ sig)) transposes_S128x128_S128x128_1_0) (transpose S128x128 [1, 0] (V (main_arg7 : DevRef τ sig)) transposes_S128x128_S128x128_1_0) (transpose S128x128 [1, 0] (V (main_arg8 : DevRef τ sig)) transposes_S128x128_S128x128_1_0) (V (main_arg9 : DevRef τ sig)) (V (main_arg10 : DevRef τ sig)) := by
  rw [after_v52, dotH_eq, mRef_eq]
  exact hRef_eq ..

/-- On every device, from any memory with zero counters: every weakly fair execution of the reference terminates
    with the first result the specification's combination, the second its message, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
        = Cert.Spec.hkArr (a := 100000) (m ((c.tc : Thread nD τ).loc main_arg0)) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (m ((c.tc : Thread nD τ).loc main_arg1)) (m ((c.tc : Thread nD τ).loc main_arg2)) (m ((c.tc : Thread nD τ).loc main_arg3)) (m ((c.tc : Thread nD τ).loc main_arg0))) (Cert.Spec.dotArr (a := 100000) (m ((c.tc : Thread nD τ).loc main_arg0)) (m ((c.tc : Thread nD τ).loc main_arg10))) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (m ((c.tc : Thread nD τ).loc main_arg1)) (m ((c.tc : Thread nD τ).loc main_arg2)) (m ((c.tc : Thread nD τ).loc main_arg3)) (Cert.Spec.dotArr (a := 100000) (m ((c.tc : Thread nD τ).loc main_arg0)) (m ((c.tc : Thread nD τ).loc main_arg10)))) (m ((c.tc : Thread nD τ).loc main_arg4)) (transpose S128x128 [1, 0] (m ((c.tc : Thread nD τ).loc main_arg5)) transposes_S128x128_S128x128_1_0) (transpose S128x128 [1, 0] (m ((c.tc : Thread nD τ).loc main_arg6)) transposes_S128x128_S128x128_1_0) (transpose S128x128 [1, 0] (m ((c.tc : Thread nD τ).loc main_arg7)) transposes_S128x128_S128x128_1_0) (transpose S128x128 [1, 0] (m ((c.tc : Thread nD τ).loc main_arg8)) transposes_S128x128_S128x128_1_0) (m ((c.tc : Thread nD τ).loc main_arg9)) (m ((c.tc : Thread nD τ).loc main_arg10))
      ∧ r.2.mem ((c.tc : Thread nD τ).loc main_v31)
        = Cert.Spec.mArr (a := 100000) (m ((c.tc : Thread nD τ).loc main_arg0)) (Cert.Spec.spmm gather_S100000x128_S1600000x1_S1600000x128_1_0_n_n_0_1_1128 scatter_S100000x128_S1600000x1_S1600000x128_1_0_0_1 bcast_S1600000_S1600000x1_0 bcast_S_S1600000 bcast_S1600000x1_S1600000x128_0_1 bcast_S_S100000x128 (m ((c.tc : Thread nD τ).loc main_arg1)) (m ((c.tc : Thread nD τ).loc main_arg2)) (m ((c.tc : Thread nD τ).loc main_arg3)) (m ((c.tc : Thread nD τ).loc main_arg0))) (transpose S128x128 [1, 0] (m ((c.tc : Thread nD τ).loc main_arg5)) transposes_S128x128_S128x128_1_0) (transpose S128x128 [1, 0] (m ((c.tc : Thread nD τ).loc main_arg6)) transposes_S128x128_S128x128_1_0) (transpose S128x128 [1, 0] (m ((c.tc : Thread nD τ).loc main_arg7)) transposes_S128x128_S128x128_1_0) (transpose S128x128 [1, 0] (m ((c.tc : Thread nD τ).loc main_arg8)) transposes_S128x128_S128x128_1_0) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v52).trans (res_v52 (launchContents m c)),
      (h c main_v31).trans (res_v31 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c))⟩)
    (RefRun.run m ρ)

end Cert.ReferenceIdeal.RefValue

end
-- ==== Proof.lean ====
/-
  The certificate: the gridded two-kernel program and the plain array program compute the same two arrays.

  Both programs form, from node features `X`, an edge list, a per-node normaliser, four relation weights, a relation
  row `r` and a graph-convolution weight `GCW`: the neighbourhood aggregate `N = A·X`, the projected features
  `XW = X·GCW` and their aggregate; the message
      m = X + ((lrelu(X·Wg1ᵀ + N·Wg2ᵀ) + 1)·r + lrelu(X·Wb1ᵀ + N·Wb2ᵀ)) − N
  and the normalised combination
      h = ((A·XW + XW) + m·GCW) / (norm + 1).
  The plain program computes these on whole arrays. The gridded program computes `XW` in fifty row blocks
  (region 0), the two aggregates and the four transposes by the same host operations as the plain program, and `m` and
  `h` in fifty row blocks (region 1), each block's products into a zero accumulator after rounding the operands to a
  narrower format. At the exact values the rounding is the identity and a product into a zero accumulator is the plain
  sum over the contracted index, in the same order on both sides; a row of `m` or `h` depends only on the same row of
  the row-indexed operands, so the blocks are exactly the rows of the whole-array results. The sparse aggregate is the
  same chain of host operations on both sides and is never opened: it is applied to equal arrays. No finiteness of the
  inputs is used: the two sides are the same expression entry by entry.

  The three frame claims: each gridded program's is its generated frame; the plain program's is its run with the
  results dropped. The idealization rewrote nothing, so its claim is trivial.
-/
import proofs.«134339_j10866267259410_1_alg».proof.Defs
import proofs.«134339_j10866267259410_1_alg».proof.Proof.Gen.Kernel
import proofs.«134339_j10866267259410_1_alg».proof.Proof.Gen.Kernel.Frame
import proofs.«134339_j10866267259410_1_alg».proof.Proof.Gen.KernelIdeal
import proofs.«134339_j10866267259410_1_alg».proof.Proof.Gen.KernelIdeal.Frame
import proofs.«134339_j10866267259410_1_alg».proof.Proof.Gen.ReferenceIdeal
import proofs.«134339_j10866267259410_1_alg».proof.Proof.Gen.Pre_finite_inputs
import proofs.«134339_j10866267259410_1_alg».proof.Proof.KernelValue
import proofs.«134339_j10866267259410_1_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

/-- The two programs' dimension records of the gather and of the accumulating scatter are the same records. -/
theorem gather_eq : Cert.ReferenceIdeal.gather_S100000x128_S1600000x1_S1600000x128_1_0_n_n_0_1_1128
    = Cert.KernelIdeal.gather_S100000x128_S1600000x1_S1600000x128_1_0_n_n_0_1_1128 := rfl
theorem scatter_eq : Cert.ReferenceIdeal.scatter_S100000x128_S1600000x1_S1600000x128_1_0_0_1
    = Cert.KernelIdeal.scatter_S100000x128_S1600000x1_S1600000x128_1_0_0_1 := rfl

/-- From memories that agree on the arguments both programs end with the specification's two arrays of those
    arguments. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ?_) (Cert.ReferenceIdeal.RefValue.run m' ρ')
  obtain ⟨h0, h1, hargs⟩ := h c
  obtain ⟨a0, a1, a2, a3, a4, a5, a6, a7, a8, a9, a10⟩ := hagree c
  refine ⟨h0.trans ?_, h1.trans ?_, hargs⟩
  · rw [a0, a1, a2, a3, a4, a5, a6, a7, a8, a9, a10, gather_eq, scatter_eq]
  · rw [a0, a1, a2, a3, a5, a6, a7, a8, a9, gather_eq, scatter_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
